-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S8x4096x64 : Shape := ⟨3, ![8, 4096, 64]⟩
abbrev S1x1x64 : Shape := ⟨3, ![1, 1, 64]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x64 : S_.BroadcastsInDim S8x4096x64 (![] : Fin 0 → Fin S8x4096x64.rank)
  reducesTo_S8x4096x64_S_d0_1_2 : S8x4096x64.ReducesTo [0, 1, 2] S_
  bcast_S_S1x1x64 : S_.BroadcastsInDim S1x1x64 (![] : Fin 0 → Fin S1x1x64.rank)
  reducesTo_S1x1x64_S_d0_1_2 : S1x1x64.ReducesTo [0, 1, 2] S_

variable [Facts]

def fn {F : FTy → Type} [FloatOps F] (main_arg0 : FVec F S8x4096x4096 .f32) (main_arg1 : FVec F S8x4096x64 .f32) (main_arg2 : FVec F S1x1x64 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S1x1x64 .f32 := Host.absf main_arg2
  let main_cst_2 : FVec F S_ .f32 := constant S_ .f32 0x7F800000#32
  let main_v10 : FVec F S1x1x64 .f32 := broadcastInDim S1x1x64 ![] bcast_S_S1x1x64 main_cst_2
  let main_v11 : IVec S1x1x64 1 := cmpf .olt main_v9 main_v10
  let main_c_3 : IVec S_ 1 := constantI S_ 1 1#1
  let main_v12 : IVec S_ 1 := (fun x v => Host.reduce IntOp.andi x v reducesTo_S1x1x64_S_d0_1_2 h_S_) main_v11 main_c_3
  let main_v13 : IVec S_ 1 := andi main_v8 main_v12
  main_v13
-- ==== Kernel.lean ====
abbrev S8x4096x4096 : Shape := ⟨3, ![8, 4096, 4096]⟩
abbrev S8x4096x64 : Shape := ⟨3, ![8, 4096, 64]⟩
abbrev S1x1x64 : Shape := ⟨3, ![1, 1, 64]⟩
abbrev S1x2048x1024 : Shape := ⟨3, ![1, 2048, 1024]⟩
abbrev S1x4096x64 : Shape := ⟨3, ![1, 4096, 64]⟩
abbrev S1x2048x64 : Shape := ⟨3, ![1, 2048, 64]⟩
abbrev S2048x64 : Shape := ⟨2, ![2048, 64]⟩
abbrev S1x1024x64 : Shape := ⟨3, ![1, 1024, 64]⟩
abbrev S1024x64 : Shape := ⟨2, ![1024, 64]⟩
abbrev S2048x1024 : Shape := ⟨2, ![2048, 1024]⟩
abbrev S1x64 : Shape := ⟨2, ![1, 64]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x4096, .f32⟩
  | .hbm, ⟨1, _⟩ => ⟨S8x4096x64, .f32⟩
  | .hbm, ⟨2, _⟩ => ⟨S1x1x64, .f32⟩
  | .hbm, ⟨3, _⟩ => ⟨S8x4096x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1x4096x64, .f32⟩
  | .local _ .vmem, ⟨3, _⟩ => ⟨S1x4096x64, .f32⟩
  | .local _ .vmem, ⟨4, _⟩ => ⟨S1x1x64, .f32⟩
  | .local _ .vmem, ⟨5, _⟩ => ⟨S1x2048x64, .f32⟩
  | .local _ .vmem, ⟨6, _⟩ => ⟨S1x2048x64, .f32⟩
  | .local _ .vmem, ⟨7, _⟩ => ⟨S2048x64, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let c0_1 : Index := 0#32
  ![0, v5.toNat, 0]
def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  h_S1x1024x64 : 0 < S1x1024x64.numel
  shapeCasts_S1x1024x64_S1024x64 : S1x1024x64.ShapeCasts S1024x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S2048x64 : S1x64.Broadcasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  dot_S2048x1024_S1024x64_S2048x64_1_0_0_1_n_n_wf : DotDims.WF S2048x1024 S1024x64 S2048x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x4096.size a
  hwx0_0 : ∀ i : grid0.Coords, EltTy.bits .f32 = 32 ∨ (Rect.block (s := S8x4096x4096) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S1x1x64.size a
  hwx0_2 : ∀ i : grid0.Coords, EltTy.bits .f32 = 32 ∨ (Rect.block (s := S1x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x4096x64.size a
  hwx0_3 : ∀ i : grid0.Coords, EltTy.bits .f32 = 32 ∨ (Rect.block (s := S8x4096x64) S1x2048x64.size (cc0_transform_3 i) (hinb0_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x4096 : Shape := ⟨3, ![8, 4096, 4096]⟩
abbrev S8x4096x64 : Shape := ⟨3, ![8, 4096, 64]⟩
abbrev S1x1x64 : Shape := ⟨3, ![1, 1, 64]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x4096x64, .f32⟩
  | .hbm, ⟨2, _⟩ => ⟨S1x1x64, .f32⟩
  | .hbm, ⟨3, _⟩ => ⟨S8x4096x64, .f32⟩
  | .hbm, ⟨4, _⟩ => ⟨S8x4096x64, .f32⟩
  | .hbm, ⟨5, _⟩ => ⟨S8x4096x64, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x1x64_S8x4096x64_0_1_2 : S1x1x64.BroadcastsInDim S8x4096x64 (![0, 1, 2] : Fin 3 → Fin S8x4096x64.rank)
  dot_S8x4096x4096_S8x4096x64_S8x4096x64_2_1_1_2_0_0_wf : DotDims.WF S8x4096x4096 S8x4096x64 S8x4096x64 [2] [1] [1] [2] [0] [0]

variable [Facts₀]

def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Pieces.lean ====
/-
  What the body leaves behind, case by case, as the stored values of its loads — for exact and for word-level values alike.

  At a point of the contracted axis the body reads the adjacency tile whole, and of the annotation block (all 4096 rows of
  the batch) the 1024 rows starting at 1024·k — the slab. At the axis' first point it zeroes the accumulator and then adds
  the tile-times-slab product to it; at the later points it adds the product to what the point before left; at the last
  point it also writes the accumulator plus the bias row to the output block.
-/
import proofs.«161040_j37907381354545_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The slab: the 1024 rows of the annotation block that the point's contraction step multiplies. -/
def slab (i : grid0.Coords) (x1 : Vec F S1x4096x64 .f32) : Vec F S1x1024x64 .f32 :=
  View.ld x1 (Rect.unit (s := S1x4096x64) (k0_off1 i) S1x1024x64.size (k0_off1_inb i))

/-- First point of the contracted axis: the accumulator ends at zero plus the product. -/
theorem acc_first (c : Dev nD) (i : grid0.Coords) (arg3 : Memref sig .tc .vmem S1x2048x1024 .f32) (harg3 : arg3.IsWhole) (arg4 : Memref sig .tc .vmem S1x4096x64 .f32) (harg4 : arg4.IsWhole) (arg5 : Memref sig .tc .vmem S1x1x64 .f32) (harg5 : arg5.IsWhole) (arg6 : Memref sig .tc .vmem S1x2048x64 .f32) (harg6 : arg6.IsWhole) (arg7 : Memref sig .tc .vmem S2048x64 .f32) (harg7 : arg7.IsWhole) (hc0 : cond0_0 i) (hc1 : ¬cond0_1 i)
    (x0 : Vec F S1x2048x1024 .f32) (x1 : Vec F S1x4096x64 .f32) (x2 : Vec F S1x1x64 .f32) :
    sout0_A_0 c i arg3 harg3 arg4 harg4 arg5 harg5 arg6 harg6 arg7 harg7 hc0 hc1 x0 x1 x2 = k0_pay2 (slab i x1) x0 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_run_names
  rw [View.canon_cons_unit_zero (S := S2048x64) hz2, View.readCov_unit_zero (S := S2048x64) _ hz2]
  simp only [View.readAt_eq_ld, harg3.read_unread, harg4.read_unread, View.ld_unit_zero (S := S1x2048x1024) hz3]
  rfl

/-- A middle point: the accumulator ends at what the point before left plus the product. -/
theorem acc_middle (c : Dev nD) (i : grid0.Coords) (arg3 : Memref sig .tc .vmem S1x2048x1024 .f32) (harg3 : arg3.IsWhole) (arg4 : Memref sig .tc .vmem S1x4096x64 .f32) (harg4 : arg4.IsWhole) (arg5 : Memref sig .tc .vmem S1x1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond0_0 i) (hc1 : ¬cond0_1 i)
    (x0 : Vec F S1x2048x1024 .f32) (x1 : Vec F S1x4096x64 .f32) (x2 : Vec F S1x1x64 .f32) (xs0 : Vec F S2048x64 .f32) :
    sout0_B_0 c i arg3 harg3 arg4 harg4 arg5 harg5 arg6 harg6 arg7 harg7 hc0 hc1 x0 x1 x2 xs0 = k0_pay2 (slab i x1) x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_run_names
  rw [View.canon_unit_zero (S := S2048x64) hz2]
  simp only [View.readAt_eq_ld, harg3.read_unread, harg4.read_unread, harg7.read_unread, View.ld_unit_zero (S := S1x2048x1024) hz3,
    View.ld_unit_zero (S := S2048x64) hz2]
  rfl

/-- The last point: the accumulator likewise, -/
theorem acc_last (c : Dev nD) (i : grid0.Coords) (arg3 : Memref sig .tc .vmem S1x2048x1024 .f32) (harg3 : arg3.IsWhole) (arg4 : Memref sig .tc .vmem S1x4096x64 .f32) (harg4 : arg4.IsWhole) (arg5 : Memref sig .tc .vmem S1x1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond0_0 i) (hc1 : cond0_1 i)
    (x0 : Vec F S1x2048x1024 .f32) (x1 : Vec F S1x4096x64 .f32) (x2 : Vec F S1x1x64 .f32) (xs0 : Vec F S2048x64 .f32) :
    sout0_C_0 c i arg3 harg3 arg4 harg4 arg5 harg5 arg6 harg6 arg7 harg7 hc0 hc1 x0 x1 x2 xs0 = k0_pay2 (slab i x1) x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_run_names
  rw [View.canon_unit_zero (S := S2048x64) hz2]
  simp only [View.readAt_eq_ld, harg3.read_unread, harg4.read_unread, harg7.read_unread, View.ld_unit_zero (S := S1x2048x1024) hz3,
    View.ld_unit_zero (S := S2048x64) hz2]
  rfl

/-- and the output block: that accumulator plus the bias row. -/
theorem out_last (c : Dev nD) (i : grid0.Coords) (arg3 : Memref sig .tc .vmem S1x2048x1024 .f32) (harg3 : arg3.IsWhole) (arg4 : Memref sig .tc .vmem S1x4096x64 .f32) (harg4 : arg4.IsWhole) (arg5 : Memref sig .tc .vmem S1x1x64 .f32) (harg5 : arg5.IsWhole) (arg6 : Memref sig .tc .vmem S1x2048x64 .f32) (harg6 : arg6.IsWhole) (arg7 : Memref sig .tc .vmem S2048x64 .f32) (harg7 : arg7.IsWhole) (hc0 : ¬cond0_0 i) (hc1 : cond0_1 i)
    (x0 : Vec F S1x2048x1024 .f32) (x1 : Vec F S1x4096x64 .f32) (x2 : Vec F S1x1x64 .f32) (xs0 : Vec F S2048x64 .f32) :
    out0_C_3 c i arg3 harg3 arg4 harg4 arg5 harg5 arg6 harg6 arg7 harg7 hc0 hc1 x0 x1 x2 xs0 = k0_pay3 (k0_pay2 (slab i x1) x0 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_run_names
  rw [View.canon_unit_zero (S := S1x2048x64) hz3, View.readCov_unit_zero (S := S2048x64) _ hz2]
  simp only [View.readAt_eq_ld, harg3.read_unread, harg4.read_unread, harg5.read_unread, harg7.read_unread,
    View.ld_unit_zero (S := S1x2048x1024) hz3, View.ld_unit_zero (S := S2048x64) hz2, View.ld_unit_zero (S := S1x1x64) hz3]
  rfl

end Cert.KernelIdeal.Pieces

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.PayloadAt.lean ====
/-
  The body's three stored values, read at an entry, on the extended reals.

  * the reset value is the zero block;
  * the accumulation step leaves, at row `r` and feature `f`, what the accumulator held there plus the product of row `r`
    of the adjacency tile with column `f` of the annotation slab — a sum over the 1024 contracted columns (the two
    roundings to bf16 on the way into the product are the identity on exact values);
  * the final step adds the bias row's entry `f` to the accumulator's entry `(r, f)`.
-/
import proofs.«161040_j37907381354545_2_alg».proof.Proof.Gen.KernelIdeal.Skeleton
import proofs.«161040_j37907381354545_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-- The reset stores zero everywhere. -/
theorem reset_apply (r : Fin 2048) (f : Fin 64) : k0_pay1 (F := Ideal) (ix2 r f) = 0 := by
  unfold k0_pay1
  rw [shapeCast_self]
  show Ideal.ofBits .f32 0x00000000#32 = 0
  exact Ideal.ofBits_zero_f32

/-- One accumulation step at an entry: the old entry plus the tile's row times the slab's column. -/
theorem step_apply (v6 : Vec Ideal S1x1024x64 .f32) (v8 : Vec Ideal S1x2048x1024 .f32) (v12 : Vec Ideal S2048x64 .f32)
    (r : Fin 2048) (f : Fin 64) :
    k0_pay2 v6 v8 v12 (ix2 r f)
      = v12 (ix2 r f) + ∑ c : Fin 1024, v8 (ix3 (0 : Fin 1) r c) * v6 (ix3 (0 : Fin 1) c f) := by
  unfold k0_pay2
  rw [shapeCast_self, addf_apply]
  refine congrArg (v12 (ix2 r f) + ·) ?_
  refine (Cert.LibPlainProduct.matmul_plain_zero_apply none _ _ r f).trans ?_
  refine Finset.sum_congr rfl fun c _ => ?_
  rw [truncf_apply, truncf_apply, shapeCast_1ab_ab_apply, shapeCast_1ab_ab_apply]

/-- The final step at an entry: the accumulator's entry plus the bias at that feature. -/
theorem bias_apply (v21 : Vec Ideal S2048x64 .f32) (v22 : Vec Ideal S1x1x64 .f32) (u : Fin 1) (r : Fin 2048) (f : Fin 64) :
    k0_pay3 v21 v22 (ix3 u r f) = v21 (ix2 r f) + v22 (ix3 (0 : Fin 1) (0 : Fin 1) f) := by
  unfold k0_pay3
  rw [shapeCast_ab_1ab_apply, addf_apply, broadcastTo_1b_ab_apply, shapeCast_1ab_ab_apply]

end Cert.KernelIdeal.PayloadAt

end
-- ==== Proof.SlabSum.lean ====
/-
  A sum over 4096 terms, cut into four consecutive runs of 1024.

  The product kernel walks the contracted axis in four steps; step `s` adds the terms with contraction index
  `1024·s + c`, `c < 1024`. Addition in a commutative monoid is associative and commutative, so the four partial sums,
  added in any order, are the whole sum: the index `m < 4096` is written uniquely as `1024·s + c`.
-/
import Idealize.ShloMosaic.Lib.ValueIdx

namespace Cert.SlabSum

/-- The contraction index of term `c` of run `s` (the run taken modulo four, so that it is an index for every natural). -/
def at4 (s : Nat) (c : Fin 1024) : Fin 4096 :=
  ⟨(s % 4) * 1024 + c.val, by have := c.isLt; have := Nat.mod_lt s (by decide : 0 < 4); omega⟩

theorem at4_val (s : Nat) (c : Fin 1024) : (at4 s c).val = (s % 4) * 1024 + c.val := rfl

/-- The four runs' sums, added up, are the sum over the whole axis. -/
theorem sum_runs {M : Type*} [AddCommMonoid M] (g : Fin 4096 → M) :
    ∑ s ∈ Finset.range 4, ∑ c : Fin 1024, g (at4 s c) = ∑ m : Fin 4096, g m := by
  rw [Finset.sum_range]
  have e : ∑ m : Fin 4096, g m = ∑ p : Fin 4 × Fin 1024, g (finProdFinEquiv p) :=
    (Equiv.sum_comp (finProdFinEquiv (m := 4) (n := 1024)) g).symm
  rw [e, Fintype.sum_prod_type]
  refine Finset.sum_congr rfl fun s _ => Finset.sum_congr rfl fun c _ => ?_
  congr 1
  apply Fin.ext
  have hs := s.isLt
  show (s.val % 4) * 1024 + c.val = c.val + 1024 * s.val
  rw [Nat.mod_eq_of_lt hs]; omega

end Cert.SlabSum
-- ==== Proof.Spec.lean ====
/-
  The result both programs compute, and the identity between the two ways of summing it.

  For adjacency `A` (8 batches of 4096×4096), annotations `X` (8 batches of 4096×64) and a bias row `β` (64 features), the
  result at batch `b`, node `n`, feature `f` is  ∑ₘ A[b,n,m] · X[b,m,f] + β[f]  on the extended reals.

  The kernel visits 64 points, numbered `t = 8·b + 4·i + k` (batch `b`, row half `i`, contraction quarter `k`); at point `t` it
  adds, for row `r` of the half and feature `f`, the partial sum over the 1024 contraction indices of quarter `k`
  (`term`). The four points of a run `4q, …, 4q+3` share batch and row half, and their quarters tile the contracted
  axis, so the run's partial sums add up to the whole sum — by associativity and commutativity of addition alone, with no
  finiteness needed.
-/
import proofs.«161040_j37907381354545_2_alg».proof.Proof.SlabSum
import Idealize.ShloMosaic.Lib.ValueIdx
import Idealize.ShloMosaic.PureOps.Ideal

noncomputable section

namespace Cert.GraphConv

open Idealize.ShloMosaic Idealize.ShloMosaic.ValueIdx Cert.SlabSum

abbrev SAdj : Shape := ⟨3, ![8, 4096, 4096]⟩
abbrev SAnn : Shape := ⟨3, ![8, 4096, 64]⟩
abbrev SBias : Shape := ⟨3, ![1, 1, 64]⟩

/-- The result at batch `b`, node `n`, feature `f`. -/
def resultAt (A : SAdj.Idx → EReal) (X : SAnn.Idx → EReal) (β : SBias.Idx → EReal) (b : Fin 8) (n : Fin 4096) (f : Fin 64) : EReal :=
  (∑ m : Fin 4096, A (ix3 b n m) * X (ix3 b m f)) + β (ix3 (0 : Fin 1) (0 : Fin 1) f)

/-- The result array. -/
def result (A : SAdj.Idx → EReal) (X : SAnn.Idx → EReal) (β : SBias.Idx → EReal) : SAnn.Idx → EReal :=
  fun i => resultAt A X β (i 0) (i 1) (i 2)

/-- The batch of point `t`. -/
def batchOf (t : Nat) : Fin 8 := ⟨(t / 8) % 8, Nat.mod_lt _ (by decide)⟩

/-- The node of row `r` of the row half that point `t` works on. -/
def nodeOf (t : Nat) (r : Fin 2048) : Fin 4096 :=
  ⟨((t / 4) % 2) * 2048 + r.val, by have := r.isLt; have := Nat.mod_lt (t / 4) (by decide : 0 < 2); omega⟩

theorem batchOf_val (t : Nat) : (batchOf t).val = (t / 8) % 8 := rfl
theorem nodeOf_val (t : Nat) (r : Fin 2048) : (nodeOf t r).val = ((t / 4) % 2) * 2048 + r.val := rfl

/-- What point `t` adds at row `r`, feature `f`: the partial sum over its quarter of the contracted axis. -/
def term (A : SAdj.Idx → EReal) (X : SAnn.Idx → EReal) (t : Nat) (r : Fin 2048) (f : Fin 64) : EReal :=
  ∑ c : Fin 1024, A (ix3 (batchOf t) (nodeOf t r) (at4 t c)) * X (ix3 (batchOf t) (at4 t c) f)

/-- The four points of a run add up to the whole contraction. -/
theorem sum_terms (A : SAdj.Idx → EReal) (X : SAnn.Idx → EReal) (q : Nat) (r : Fin 2048) (f : Fin 64) :
    ∑ s ∈ Finset.range 4, term A X (4 * q + s) r f
      = ∑ m : Fin 4096, A (ix3 (batchOf (4 * q)) (nodeOf (4 * q) r) m) * X (ix3 (batchOf (4 * q)) m f) := by
  rw [← sum_runs (fun m => A (ix3 (batchOf (4 * q)) (nodeOf (4 * q) r) m) * X (ix3 (batchOf (4 * q)) m f))]
  refine Finset.sum_congr rfl fun s hs => ?_
  have hs4 : s < 4 := Finset.mem_range.mp hs
  unfold term
  refine Finset.sum_congr rfl fun c _ => ?_
  have e1 : batchOf (4 * q + s) = batchOf (4 * q) := Fin.ext (by rw [batchOf_val, batchOf_val]; omega)
  have e2 : nodeOf (4 * q + s) r = nodeOf (4 * q) r := Fin.ext (by rw [nodeOf_val, nodeOf_val]; omega)
  have e3 : at4 (4 * q + s) c = at4 s c := Fin.ext (by rw [at4_val, at4_val]; omega)
  rw [e1, e2, e3]

/-- So zero plus a run's four partial sums, plus the bias, is the result at the run's batch and row. -/
theorem run_is_result (A : SAdj.Idx → EReal) (X : SAnn.Idx → EReal) (β : SBias.Idx → EReal) (t : Nat) (r : Fin 2048) (f : Fin 64) :
    (0 + ∑ s ∈ Finset.range 4, term A X (4 * (t / 4) + s) r f) + β (ix3 (0 : Fin 1) (0 : Fin 1) f)
      = resultAt A X β (batchOf t) (nodeOf t r) f := by
  have e1 : batchOf (4 * (t / 4)) = batchOf t := Fin.ext (by rw [batchOf_val, batchOf_val]; omega)
  have e2 : nodeOf (4 * (t / 4)) r = nodeOf t r := Fin.ext (by rw [nodeOf_val, nodeOf_val]; omega)
  rw [zero_add, sum_terms, e1, e2]
  rfl

end Cert.GraphConv

end
-- ==== Proof.Blocks.lean ====
/-
  What the windows' blocks hold, entry by entry, in terms of the argument arrays.

  Point `t` of the grid has batch `(t / 8) % 8`, row half `(t / 4) % 2` and contraction quarter `t % 4`. Its adjacency tile is
  rows `2048·half …`, columns `1024·quarter …` of the batch's matrix; its annotation block is the whole batch, of which the
  body takes the slab of rows `1024·quarter …`; the bias block is the whole bias; the output block is rows `2048·half …` of the
  batch's result. A block's element `y` sits in the array at block index × block size + `y`, axis by axis.
-/
import proofs.«161040_j37907381354545_2_alg».proof.Proof.Gen.KernelIdeal.Frame
import proofs.«161040_j37907381354545_2_alg».proof.Proof.Pieces
import proofs.«161040_j37907381354545_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GraphConv Cert.SlabSum Cert.KernelIdeal.Pieces

variable {F : FTy → Type} [FloatOps F]
variable (m : (ℓ : Loc nD τ sig) → Buf (Elt F) ℓ)

/-- The printed index maps and the slab's offset, decided over the 64 points. -/
theorem idx_facts : ∀ t : Fin cfg0.N,
    win0_0.index t (0 : Fin 3) = (t.val / 8) % 8 ∧ win0_0.index t (1 : Fin 3) = (t.val / 4) % 2 ∧ win0_0.index t (2 : Fin 3) = t.val % 4
    ∧ win0_1.index t (0 : Fin 3) = (t.val / 8) % 8 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = (t.val / 8) % 8 ∧ win0_3.index t (1 : Fin 3) = (t.val / 4) % 2 ∧ win0_3.index t (2 : Fin 3) = 0
    ∧ k0_off1 (grid0.coords t) (0 : Fin 3) = 0 ∧ k0_off1 (grid0.coords t) (1 : Fin 3) = (t.val % 4) * 1024 ∧ k0_off1 (grid0.coords t) (2 : Fin 3) = 0 :=
  (by decide +kernel : ∀ t : Fin grid0.N, _)

/-- The adjacency tile at point `t`. -/
theorem adj_tile (c : Dev nD) (t : Fin cfg0.N) (u : Fin 1) (r : Fin 2048) (cc : Fin 1024) :
    (iblk m c 0 t : Vec F S1x2048x1024 .f32) (ix3 u r cc)
      = m ((c : Thread nD τ).loc main_arg0) (ix3 (batchOf t.val) (nodeOf t.val r) (at4 t.val cc)) := by
  obtain ⟨e0, e1, e2, -⟩ := idx_facts t
  unfold iblk
  rw [View.read_apply]
  show V m c main_arg0 _ = _
  unfold V
  refine congrArg _ ?_
  funext a; apply Fin.ext
  match a with
  | ⟨0, _⟩ => show win0_0.index t (0 : Fin 3) * 1 + 1 * u.val = (t.val / 8) % 8; have := u.isLt; omega
  | ⟨1, _⟩ => show win0_0.index t (1 : Fin 3) * 2048 + 1 * r.val = ((t.val / 4) % 2) * 2048 + r.val; omega
  | ⟨2, _⟩ => show win0_0.index t (2 : Fin 3) * 1024 + 1 * cc.val = (t.val % 4) * 1024 + cc.val; omega

/-- The annotation slab at point `t`. -/
theorem ann_slab (c : Dev nD) (t : Fin cfg0.N) (u : Fin 1) (cc : Fin 1024) (f : Fin 64) :
    slab (grid0.coords t) (iblk m c 1 t : Vec F S1x4096x64 .f32) (ix3 u cc f)
      = m ((c : Thread nD τ).loc main_arg1) (ix3 (batchOf t.val) (at4 t.val cc) f) := by
  obtain ⟨-, -, -, e0, e1, e2, -, -, -, -, -, -, k0, k1, k2⟩ := idx_facts t
  unfold slab iblk
  show View.read _ _ _ _ = _
  rw [View.read_apply]
  show V m c main_arg1 _ = _
  unfold V
  refine congrArg _ ?_
  funext a; apply Fin.ext
  match a with
  | ⟨0, _⟩ => show win0_1.index t (0 : Fin 3) * 1 + 1 * (k0_off1 (grid0.coords t) (0 : Fin 3) + 1 * u.val) = (t.val / 8) % 8; have := u.isLt; omega
  | ⟨1, _⟩ => show win0_1.index t (1 : Fin 3) * 4096 + 1 * (k0_off1 (grid0.coords t) (1 : Fin 3) + 1 * cc.val) = (t.val % 4) * 1024 + cc.val; omega
  | ⟨2, _⟩ => show win0_1.index t (2 : Fin 3) * 64 + 1 * (k0_off1 (grid0.coords t) (2 : Fin 3) + 1 * f.val) = f.val; omega

/-- The bias block at any point is the bias. -/
theorem bias_row (c : Dev nD) (t : Fin cfg0.N) (u v : Fin 1) (f : Fin 64) :
    (iblk m c 2 t : Vec F S1x1x64 .f32) (ix3 u v f) = m ((c : Thread nD τ).loc main_arg2) (ix3 (0 : Fin 1) (0 : Fin 1) f) := by
  obtain ⟨-, -, -, -, -, -, e0, e1, e2, -⟩ := idx_facts t
  unfold iblk
  rw [View.read_apply]
  show V m c main_arg2 _ = _
  unfold V
  refine congrArg _ ?_
  funext a; apply Fin.ext
  match a with
  | ⟨0, _⟩ => show win0_2.index t (0 : Fin 3) * 1 + 1 * u.val = 0; have := u.isLt; omega
  | ⟨1, _⟩ => show win0_2.index t (1 : Fin 3) * 1 + 1 * v.val = 0; have := v.isLt; omega
  | ⟨2, _⟩ => show win0_2.index t (2 : Fin 3) * 64 + 1 * f.val = f.val; omega

/-- The output block at point `t`, read off any contents of the result array. -/
theorem out_block (c : Dev nD) (t : Fin cfg0.N) (R : Buf (Elt F) ((c : Thread nD τ).loc main_v0)) (u : Fin 1) (r : Fin 2048) (f : Fin 64) :
    (((cfg0.win 3).blk t).view.read (Elt F) R : Vec F S1x2048x64 .f32) (ix3 u r f) = R (ix3 (batchOf t.val) (nodeOf t.val r) f) := by
  obtain ⟨-, -, -, -, -, -, -, -, -, e0, e1, e2, -⟩ := idx_facts t
  rw [View.read_apply]
  show R _ = _
  refine congrArg _ ?_
  funext a; apply Fin.ext
  match a with
  | ⟨0, _⟩ => show win0_3.index t (0 : Fin 3) * 1 + 1 * u.val = (t.val / 8) % 8; have := u.isLt; omega
  | ⟨1, _⟩ => show win0_3.index t (1 : Fin 3) * 2048 + 1 * r.val = ((t.val / 4) % 2) * 2048 + r.val; omega
  | ⟨2, _⟩ => show win0_3.index t (2 : Fin 3) * 64 + 1 * f.val = f.val; omega

end Cert.KernelIdeal.Blocks

end
-- ==== Proof.Fold.lean ====
/-
  The accumulator after each point, and the result array after the run, on the extended reals.

  At every point the body adds the point's partial sum (`term`) to the accumulator — to zero at the first point of a run of
  four, to what the point before left otherwise. So after the run's last point the accumulator holds zero plus the four
  partial sums, and the output block written there is that plus the bias: the result at the run's batch and rows. Every
  entry of the result array lies in the block of exactly one run's last point, so after the whole grid the array is the
  result.
-/
import proofs.«161040_j37907381354545_2_alg».proof.Proof.Gen.KernelIdeal.Value
import proofs.«161040_j37907381354545_2_alg».proof.Proof.Pieces
import proofs.«161040_j37907381354545_2_alg».proof.Proof.PayloadAt
import proofs.«161040_j37907381354545_2_alg».proof.Proof.Blocks
import proofs.«161040_j37907381354545_2_alg».proof.Proof.Spec
import Idealize.ShloMosaic.Lib.Pipeline.Value

noncomputable section

namespace Cert.KernelIdeal.Fold

open Cert.KernelIdeal Cert.KernelIdeal.Gen Idealize.ShloMosaic Idealize.ShloMosaic.TcCoe Idealize.SL.Sem
open Idealize.ShloMosaic.Pipeline (Dat)
open Idealize.ShloMosaic.ValueIdx Cert.GraphConv Cert.SlabSum Cert.KernelIdeal.Pieces

variable (m : (ℓ : Loc nD τ sig) → Buf (Elt Ideal) ℓ) (ρ : Dev nD → PrngReg)

/-- What point `n` adds to the accumulator, entry by entry. -/
def addend (c : Dev nD) (n : Nat) : S2048x64.Idx → EReal :=
  fun i => term (m ((c : Thread nD τ).loc main_arg0)) (m ((c : Thread nD τ).loc main_arg1)) n (i 0) (i 1)

/-- One accumulation step at point `t`, over any accumulator: the old entry plus the point's partial sum. -/
theorem step_at (c : Dev nD) (t : Fin cfg0.N) (acc : Vec Ideal S2048x64 .f32) (i : S2048x64.Idx) :
    k0_pay2 (slab (grid0.coords t) (iblk m c 1 t)) (iblk m c 0 t) acc i = acc i + addend m c t.val i := by
  obtain ⟨r, f, rfl⟩ : ∃ (r : Fin 2048) (f : Fin 64), i = ix2 r f := ⟨i 0, i 1, eq_ix2 i⟩
  refine (PayloadAt.step_apply (slab (grid0.coords t) (iblk m c 1 t)) (iblk m c 0 t) acc r f).trans ?_
  refine congrArg (acc (ix2 r f) + ·) ?_
  show _ = term _ _ t.val r f
  unfold term
  refine Finset.sum_congr rfl fun cc _ => ?_
  rw [Blocks.adj_tile m c t (0 : Fin 1) r cc, Blocks.ann_slab m c t (0 : Fin 1) cc f]

/-- What a point leaves in the accumulator over what the point before left: zero plus the addend at the first point of a
    run, the old entry plus the addend elsewhere. -/
theorem scratch_step (c : Dev nD) (n : Nat) (hb : n < cfg0.N) (acc : Vec Ideal S2048x64 .f32) (i : S2048x64.Idx) :
    Value.scAt0_0 m c n hb acc i = (if n % 4 = 0 then 0 else acc i) + addend m c n i := by
  unfold Value.scAt0_0
  by_cases h0 : n % 4 = 0
  · have h1 : ¬n % 4 = 3 := by omega
    rw [dif_pos h0, dif_neg h1, if_pos h0]
    rw [acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))]
    refine (step_at m c ⟨n, hb⟩ (k0_pay1 (F := Ideal)) i).trans ?_
    refine congrArg (· + addend m c n i) ?_
    obtain ⟨r, f, rfl⟩ : ∃ (r : Fin 2048) (f : Fin 64), i = ix2 r f := ⟨i 0, i 1, eq_ix2 i⟩
    exact PayloadAt.reset_apply r f
  · rw [dif_neg h0, if_neg h0]
    by_cases h1 : n % 4 = 3
    · rw [dif_pos h1]
      rw [acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc]
      exact step_at m c ⟨n, hb⟩ acc i
    · rw [dif_neg h1]
      rw [acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc]
      exact step_at m c ⟨n, hb⟩ acc i

/-- The accumulator after point `t`: zero plus the partial sums of the run's points up to `t`. -/
theorem scratch_after (c : Dev nD) (t : Fin cfg0.N) (i : S2048x64.Idx) :
    (outsAt0 m c t.val t.isLt).2 i
      = 0 + ∑ s ∈ Finset.range (t.val % 4 + 1), addend m c (4 * (t.val / 4) + s) i := by
  rw [Value.soutsAt0_0_eq m c t]
  refine Pipeline.accAt_add_apply (ι := S2048x64.Idx) (β := EReal) _ _ (fun _ => 0) (addend m c) (4 * (t.val / 4)) 3
    (fun h j => ?_) (fun n h acc j hlt hle => ?_) (t.val % 4) (by omega) _ i
  · rw [scratch_step, if_pos (by omega)]
  · rw [scratch_step, if_neg (by omega)]

end Cert.KernelIdeal.Fold

end
-- ==== Proof.Final.lean ====
/-
  The result array after the run.

  The output block is written back at the last point of each run of four (the points ≡ 3 mod 4). What is written there is the
  accumulator — zero plus the run's four partial sums — plus the bias, which is the result at the block's batch and rows.
  Entry (b, n, f) of the array lies in the block of point 8·b + 4·(n / 2048) + 3, so the blocks written back cover the array,
  and it ends holding the result.
-/
import proofs.«161040_j37907381354545_2_alg».proof.Proof.Fold

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.GraphConv Cert.SlabSum Cert.KernelIdeal.Pieces Cert.KernelIdeal.Fold

variable (m : (ℓ : Loc nD τ sig) → Buf (Elt Ideal) ℓ) (ρ : Dev nD → PrngReg)

/-- The result of the three argument arrays as launched, as contents of the result array. -/
abbrev res (c : Dev nD) : Buf (Elt Ideal) ((c : Thread nD τ).loc main_v0) :=
  result (m ((c : Thread nD τ).loc main_arg0)) (m ((c : Thread nD τ).loc main_arg1)) (m ((c : Thread nD τ).loc main_arg2))

/-- At a run's last point the output block is the accumulator (as that point leaves it) plus the bias row. -/
theorem out_at_last (c : Dev nD) (t : Fin cfg0.N) (h0 : ¬t.val % 4 = 0) (h3 : t.val % 4 = 3) :
    (outsAt0 m c t.val t.isLt).1 = k0_pay3 ((outsAt0 m c t.val t.isLt).2) (iblk m c 2 t) := by
  rw [outsAt0_C m c t h0 h3]
  dsimp only
  rw [out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2,
    acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2]

/-- What a write-back writes is its block of the result. -/
theorem flushed_eq (c : Dev nD) (t : Fin cfg0.N) (hf : (cfg0.win 3).flush t = true) :
    (dats m 0 c).flushed 3 t = ((cfg0.win 3).blk t).view.read (Elt Ideal) (res m c) := by
  have h3 : t.val % 4 = 3 := (flush0_3 t).mp hf
  have h0 : ¬t.val % 4 = 0 := by omega
  rw [Value.flushed3 m c t, out_at_last m c t h0 h3]
  funext y
  obtain ⟨u, r, f, rfl⟩ : ∃ (u : Fin 1) (r : Fin 2048) (f : Fin 64), y = ix3 u r f := ⟨y 0, y 1, y 2, eq_ix3 y⟩
  show k0_pay3 ((outsAt0 m c t.val t.isLt).2) (iblk m c 2 t) (ix3 u r f) = _
  refine (PayloadAt.bias_apply ((outsAt0 m c t.val t.isLt).2) (iblk m c 2 t) u r f).trans ?_
  rw [scratch_after m c t (ix2 r f), Blocks.bias_row m c t (0 : Fin 1) (0 : Fin 1) f, Blocks.out_block c t (res m c) u r f, h3]
  exact run_is_result _ _ _ t.val r f

/-- Every entry of the result array is in the block some write-back writes. -/
theorem cover (c : Dev nD) (i : S8x4096x64.Idx) :
    ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 64 := (i 2).isLt
  have hN : cfg0.N = 64 := N_0
  let t : Fin cfg0.N := ⟨8 * (i 0).val + 4 * ((i 1).val / 2048) + 3, by rw [hN]; omega⟩
  have ht : t.val = 8 * (i 0).val + 4 * ((i 1).val / 2048) + 3 := rfl
  obtain ⟨-, -, -, -, -, -, -, -, -, e0, e1, e2, -⟩ := Blocks.idx_facts t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- So the result array ends holding the result. -/
theorem final (c : Dev nD) : (dats m 0 c).arrAt 3 cfg0.N = res m c :=
  (dats m 0 c).arrAt_eq_of_cover 3 (res m c) (flushed_eq m c) (cover c)

/-- The kernel's run: the result array at the result of the arguments, the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefSide.lean ====
/-
  The reference computes the result: its product of the two arrays, read at an entry, is the sum over the contracted
  node index, and the bias row is broadcast along batch and node.
-/
import proofs.«161040_j37907381354545_2_alg».proof.Proof.Gen.ReferenceIdeal.Read
import proofs.«161040_j37907381354545_2_alg».proof.Proof.Spec

noncomputable section

namespace Cert.ReferenceIdeal.RefValue

open Cert.ReferenceIdeal Cert.ReferenceIdeal.Read Idealize.ShloMosaic Idealize.ShloMosaic.ValueIdx Cert.GraphConv

/-- The reference's last stage is the result array, entry by entry. -/
theorem ref_is_result (x0 : (⟨S8x4096x4096, .f32⟩ : BufTy).Contents (Elt Ideal)) (x1 : (⟨S8x4096x64, .f32⟩ : BufTy).Contents (Elt Ideal))
    (x2 : (⟨S1x1x64, .f32⟩ : BufTy).Contents (Elt Ideal)) :
    val_main_v2 (F := Ideal) x0 x1 x2 = result x0 x1 x2 := by
  funext i
  have el : ∀ k : Fin 4096, lidx_main_v0 i k = ix3 (i 0) (i 1) k := fun k => funext fun a => Fin.ext (by
    match a with
    | ⟨0, _⟩ => rfl
    | ⟨1, _⟩ => rfl
    | ⟨2, _⟩ => rfl)
  have er : ∀ k : Fin 4096, ridx_main_v0 i k = ix3 (i 0) k (i 2) := fun k => funext fun a => Fin.ext (by
    match a with
    | ⟨0, _⟩ => rfl
    | ⟨1, _⟩ => rfl
    | ⟨2, _⟩ => rfl)
  have eb : idx_main_v1 i = ix3 (0 : Fin 1) (0 : Fin 1) (i 2) := funext fun a => Fin.ext (by
    match a with
    | ⟨0, _⟩ => rfl
    | ⟨1, _⟩ => rfl
    | ⟨2, _⟩ => rfl)
  rw [val_main_v2_apply, val_main_v0_apply, val_main_v1_apply]
  simp only [el, er, eb, Ideal.addf_def]
  rfl

end Cert.ReferenceIdeal.RefValue

end
-- ==== Proof.lean ====
/-
  A graph-convolution layer: for adjacency `A` (8 batches of 4096×4096), node annotations `X` (8 batches of 4096×64) and a
  bias row `β` (64 features), the result at batch `b`, node `n`, feature `f` is  ∑ₘ A[b,n,m] · X[b,m,f] + β[f].

  The kernel computes it tile by tile on a grid of 8 × 2 × 4 points (batch, row half, contraction quarter): at each point
  it multiplies a 2048×1024 adjacency tile with the matching 1024 rows of the batch's annotations (both rounded to bf16 on
  the way into the product — the identity on exact values) and adds the product to an accumulator, zeroed at the first
  quarter; at the last quarter it writes accumulator plus bias to the output block. The reference is one batched product
  plus the broadcast bias.

  On the extended reals the two agree entry by entry: the kernel's value is (((0 + S₀) + S₁) + S₂) + S₃ + β[f] with `Sₖ` the
  partial sum over quarter `k` of the contracted axis, the reference's is the whole sum plus β[f], and a sum over 4096
  indices is the sum of its four consecutive quarters — associativity and commutativity of addition only, which hold at
  the infinities too, so the finiteness of the inputs is never used.

  The modules: SlabSum (a sum over 4096 cut in four), Spec (the result, a point's partial sum, and their identity),
  PayloadAt (the body's three stored values at an entry), Pieces (what each case of the body leaves, as those values of
  its loads), Blocks (the blocks' entries in terms of the argument arrays), Fold (the accumulator after each point),
  Final (the result array after the run), RefSide (the reference's value is the result). Here: the five claims.
-/
import proofs.«161040_j37907381354545_2_alg».proof.Defs
import proofs.«161040_j37907381354545_2_alg».proof.Proof.Gen.Kernel
import proofs.«161040_j37907381354545_2_alg».proof.Proof.Gen.Kernel.Frame
import proofs.«161040_j37907381354545_2_alg».proof.Proof.Gen.KernelIdeal
import proofs.«161040_j37907381354545_2_alg».proof.Proof.Gen.KernelIdeal.Frame
import proofs.«161040_j37907381354545_2_alg».proof.Proof.Gen.KernelIdeal.Value
import proofs.«161040_j37907381354545_2_alg».proof.Proof.Gen.ReferenceIdeal
import proofs.«161040_j37907381354545_2_alg».proof.Proof.Gen.ReferenceIdeal.Run
import proofs.«161040_j37907381354545_2_alg».proof.Proof.Gen.ReferenceIdeal.Read
import proofs.«161040_j37907381354545_2_alg».proof.Proof.Gen.Pre_finite_inputs
import proofs.«161040_j37907381354545_2_alg».proof.Proof.Final
import proofs.«161040_j37907381354545_2_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel on exact values. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on exact values rewrites no operation. -/
theorem preserves : Cert.preserves_Kernel_KernelIdeal := trivial

/-- From memories agreeing on the three arguments both programs end with the result array holding
    ∑ₘ A[b,n,m] · X[b,m,f] + β[f] of those arguments. -/
theorem algebraic : Cert.algebraic_KernelIdeal_ReferenceIdeal := by
  intro m ρ m' ρ' _ hagree
  refine ⟨fun c => Cert.KernelIdeal.Final.res m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_is_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
